-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x16x49x64 : Shape := ⟨4, ![256, 16, 49, 64]⟩
abbrev S_ : Shape := ⟨0, ![]⟩

class Facts : Prop where
  bcast_S_S256x16x49x64 : S_.BroadcastsInDim S256x16x49x64 (![] : Fin 0 → Fin S256x16x49x64.rank)
  reducesTo_S256x16x49x64_S_d0_1_2_3 : S256x16x49x64.ReducesTo [0, 1, 2, 3] S_
  h_S_ : 0 < S_.numel

variable [Facts]

def fn {F : FTy → Type} [FloatOps F] (main_arg0 : FVec F S256x16x49x64 .f32) (main_arg1 : FVec F S256x16x49x64 .f32) (main_arg2 : FVec F S256x16x49x64 .f32) : IVec S_ 1 :=
  let main_v0 : FVec F S256x16x49x64 .f32 := Host.absf main_arg0
  let main_cst : FVec F S_ .f32 := constant S_ .f32 0x7F800000#32
  let main_v1 : FVec F S256x16x49x64 .f32 := broadcastInDim S256x16x49x64 ![] bcast_S_S256x16x49x64 main_cst
  let main_v2 : IVec S256x16x49x64 1 := cmpf .olt main_v0 main_v1
  let main_c : IVec S_ 1 := constantI S_ 1 1#1
  let main_v3 : IVec S_ 1 := (fun x v => Host.reduce IntOp.andi x v reducesTo_S256x16x49x64_S_d0_1_2_3 h_S_) main_v2 main_c
  let main_v4 : FVec F S256x16x49x64 .f32 := Host.absf main_arg1
  let main_cst_0 : FVec F S_ .f32 := constant S_ .f32 0x7F800000#32
  let main_v5 : FVec F S256x16x49x64 .f32 := broadcastInDim S256x16x49x64 ![] bcast_S_S256x16x49x64 main_cst_0
  let main_v6 : IVec S256x16x49x64 1 := cmpf .olt main_v4 main_v5
  let main_c_1 : IVec S_ 1 := constantI S_ 1 1#1
  let main_v7 : IVec S_ 1 := (fun x v => Host.reduce IntOp.andi x v reducesTo_S256x16x49x64_S_d0_1_2_3 h_S_) main_v6 main_c_1
  let main_v8 : IVec S_ 1 := andi main_v3 main_v7
  let main_v9 : FVec F S256x16x49x64 .f32 := Host.absf main_arg2
  let main_cst_2 : FVec F S_ .f32 := constant S_ .f32 0x7F800000#32
  let main_v10 : FVec F S256x16x49x64 .f32 := broadcastInDim S256x16x49x64 ![] bcast_S_S256x16x49x64 main_cst_2
  let main_v11 : IVec S256x16x49x64 1 := cmpf .olt main_v9 main_v10
  let main_c_3 : IVec S_ 1 := constantI S_ 1 1#1
  let main_v12 : IVec S_ 1 := (fun x v => Host.reduce IntOp.andi x v reducesTo_S256x16x49x64_S_d0_1_2_3 h_S_) main_v11 main_c_3
  let main_v13 : IVec S_ 1 := andi main_v8 main_v12
  main_v13
-- ==== Kernel.lean ====
abbrev S256x16x49x64 : Shape := ⟨4, ![256, 16, 49, 64]⟩
abbrev S4096x49x64 : Shape := ⟨3, ![4096, 49, 64]⟩
abbrev S128x49x64 : Shape := ⟨3, ![128, 49, 64]⟩
abbrev S128x49x49 : Shape := ⟨3, ![128, 49, 49]⟩
abbrev S128x49 : Shape := ⟨2, ![128, 49]⟩
abbrev S128x49x1 : Shape := ⟨3, ![128, 49, 1]⟩

abbrev nBuf : Space → Nat
  | .hbm => 8
  | .vmem => 8
  | .smem => 0
  | _ => 0

abbrev bufTy : (tb : Table) → Fin (tcTables nBuf tb) → BufTy
  | .hbm, ⟨0, _⟩ => ⟨S256x16x49x64, .f32⟩
  | .hbm, ⟨1, _⟩ => ⟨S256x16x49x64, .f32⟩
  | .hbm, ⟨2, _⟩ => ⟨S256x16x49x64, .f32⟩
  | .hbm, ⟨3, _⟩ => ⟨S4096x49x64, .f32⟩
  | .hbm, ⟨4, _⟩ => ⟨S4096x49x64, .f32⟩
  | .hbm, ⟨5, _⟩ => ⟨S4096x49x64, .f32⟩
  | .hbm, ⟨6, _⟩ => ⟨S4096x49x64, .f32⟩
  | .hbm, ⟨7, _⟩ => ⟨S256x16x49x64, .f32⟩
  | .local _ .vmem, ⟨0, _⟩ => ⟨S128x49x64, .f32⟩
  | .local _ .vmem, ⟨1, _⟩ => ⟨S128x49x64, .f32⟩
  | .local _ .vmem, ⟨2, _⟩ => ⟨S128x49x64, .f32⟩
  | .local _ .vmem, ⟨3, _⟩ => ⟨S128x49x64, .f32⟩
  | .local _ .vmem, ⟨4, _⟩ => ⟨S128x49x64, .f32⟩
  | .local _ .vmem, ⟨5, _⟩ => ⟨S128x49x64, .f32⟩
  | .local _ .vmem, ⟨6, _⟩ => ⟨S128x49x64, .f32⟩
  | .local _ .vmem, ⟨7, _⟩ => ⟨S128x49x64, .f32⟩
  | _, _ => ⟨S256x16x49x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x49x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x49x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x49x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x49x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S256x16x49x64_S4096x49x64 : S256x16x49x64.ShapeCasts S4096x49x64
  inb_S128x49x64_S128x49x64_0_0_0 : ∀ a, (![0, 0, 0] : Fin 3 → Nat) a + S128x49x64.size a ≤ S128x49x64.size a
  h_S128x49x64 : 0 < S128x49x64.numel
  shapeCasts_S128x49x64_S128x49x64 : S128x49x64.ShapeCasts S128x49x64
  bitsLt_bf16_f32 : FTy.bits .bf16 < FTy.bits .f32
  reduces_S128x49x49_S128x49 : S128x49x49.Reduces [2] S128x49
  shapeCasts_S128x49_S128x49x1 : S128x49.ShapeCasts S128x49x1
  broadcasts_S128x49x1_S128x49x49 : S128x49x1.Broadcasts S128x49x49
  shapeCasts_S4096x49x64_S256x16x49x64 : S4096x49x64.ShapeCasts S256x16x49x64
  dot_S128x49x64_S128x49x64_S128x49x49_2_2_1_1_0_0_wf : DotDims.WF S128x49x64 S128x49x64 S128x49x49 [2] [2] [1] [1] [0] [0]
  dot_S128x49x49_S128x49x64_S128x49x64_2_1_1_2_0_0_wf : DotDims.WF S128x49x49 S128x49x64 S128x49x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x49x64.size a ≤ S4096x49x64.size a
  hwx0_0 : ∀ i : grid0.Coords, EltTy.bits .f32 = 32 ∨ (Rect.block (s := S4096x49x64) S128x49x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x49x64.size a ≤ S4096x49x64.size a
  hwx0_1 : ∀ i : grid0.Coords, EltTy.bits .f32 = 32 ∨ (Rect.block (s := S4096x49x64) S128x49x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x49x64.size a ≤ S4096x49x64.size a
  hwx0_2 : ∀ i : grid0.Coords, EltTy.bits .f32 = 32 ∨ (Rect.block (s := S4096x49x64) S128x49x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x49x64.size a ≤ S4096x49x64.size a
  hwx0_3 : ∀ i : grid0.Coords, EltTy.bits .f32 = 32 ∨ (Rect.block (s := S4096x49x64) S128x49x64.size (cc0_transform_3 i) (hinb0_3 i)).WholeWords (EltTy.packing .f32)

variable [Facts₀]

def dot_S128x49x64_S128x49x64_S128x49x49_2_2_1_1_0_0 : DotDims S128x49x64 S128x49x64 S128x49x49 where
  lhsContracting := [2]
  rhsContracting := [2]
  lhsNonContracting := [1]
  rhsNonContracting := [1]
  lhsBatch := [0]
  rhsBatch := [0]
  wf := dot_S128x49x64_S128x49x64_S128x49x49_2_2_1_1_0_0_wf
def dot_S128x49x49_S128x49x64_S128x49x64_2_1_1_2_0_0 : DotDims S128x49x49 S128x49x64 S128x49x64 where
  lhsContracting := [2]
  rhsContracting := [1]
  lhsNonContracting := [1]
  rhsNonContracting := [2]
  lhsBatch := [0]
  rhsBatch := [0]
  wf := dot_S128x49x49_S128x49x64_S128x49x64_2_1_1_2_0_0_wf

abbrev win0_0 : Pipeline.Window sig grid0 :=
  Pipeline.Window.ofSpec (Memref.whole main_v0) S128x49x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x49x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128x49x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S128x49x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S256x16x49x64 : Shape := ⟨4, ![256, 16, 49, 64]⟩
abbrev S256x16x49x49 : Shape := ⟨4, ![256, 16, 49, 49]⟩
abbrev S_ : Shape := ⟨0, ![]⟩
abbrev S256x16x49 : Shape := ⟨3, ![256, 16, 49]⟩
abbrev S256x16x49x1 : Shape := ⟨4, ![256, 16, 49, 1]⟩

abbrev nBuf : Space → Nat
  | .hbm => 22
  | .vmem => 0
  | .smem => 0
  | _ => 0

abbrev bufTy : (tb : Table) → Fin (tcTables nBuf tb) → BufTy
  | .hbm, ⟨0, _⟩ => ⟨S256x16x49x64, .f32⟩
  | .hbm, ⟨1, _⟩ => ⟨S256x16x49x64, .f32⟩
  | .hbm, ⟨2, _⟩ => ⟨S256x16x49x64, .f32⟩
  | .hbm, ⟨3, _⟩ => ⟨S256x16x49x49, .f32⟩
  | .hbm, ⟨4, _⟩ => ⟨S_, .f32⟩
  | .hbm, ⟨5, _⟩ => ⟨S256x16x49x49, .f32⟩
  | .hbm, ⟨6, _⟩ => ⟨S256x16x49x49, .f32⟩
  | .hbm, ⟨7, _⟩ => ⟨S_, .f32⟩
  | .hbm, ⟨8, _⟩ => ⟨S256x16x49, .f32⟩
  | .hbm, ⟨9, _⟩ => ⟨S256x16x49x1, .f32⟩
  | .hbm, ⟨10, _⟩ => ⟨S256x16x49x49, .f32⟩
  | .hbm, ⟨11, _⟩ => ⟨S256x16x49x49, .f32⟩
  | .hbm, ⟨12, _⟩ => ⟨S256x16x49x49, .f32⟩
  | .hbm, ⟨13, _⟩ => ⟨S_, .f32⟩
  | .hbm, ⟨14, _⟩ => ⟨S256x16x49, .f32⟩
  | .hbm, ⟨15, _⟩ => ⟨S256x16x49x1, .f32⟩
  | .hbm, ⟨16, _⟩ => ⟨S_, .f32⟩
  | .hbm, ⟨17, _⟩ => ⟨S256x16x49x1, .f32⟩
  | .hbm, ⟨18, _⟩ => ⟨S256x16x49x1, .f32⟩
  | .hbm, ⟨19, _⟩ => ⟨S256x16x49x49, .f32⟩
  | .hbm, ⟨20, _⟩ => ⟨S256x16x49x49, .f32⟩
  | .hbm, ⟨21, _⟩ => ⟨S256x16x49x64, .f32⟩
  | _, _ => ⟨S256x16x49x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S256x16x49x49 : S_.BroadcastsInDim S256x16x49x49 (![] : Fin 0 → Fin S256x16x49x49.rank)
  reducesTo_S256x16x49x49_S256x16x49_d3 : S256x16x49x49.ReducesTo [3] S256x16x49
  h_S_ : 0 < S_.numel
  bcast_S256x16x49_S256x16x49x1_0_1_2 : S256x16x49.BroadcastsInDim S256x16x49x1 (![0, 1, 2] : Fin 3 → Fin S256x16x49x1.rank)
  bcast_S256x16x49x1_S256x16x49x49_0_1_2_3 : S256x16x49x1.BroadcastsInDim S256x16x49x49 (![0, 1, 2, 3] : Fin 4 → Fin S256x16x49x49.rank)
  bcast_S_S256x16x49x1 : S_.BroadcastsInDim S256x16x49x1 (![] : Fin 0 → Fin S256x16x49x1.rank)
  dot_S256x16x49x64_S256x16x49x64_S256x16x49x49_3_3_2_2_01_01_wf : DotDims.WF S256x16x49x64 S256x16x49x64 S256x16x49x49 [3] [3] [2] [2] [0, 1] [0, 1]
  dot_S256x16x49x49_S256x16x49x64_S256x16x49x64_3_2_2_3_01_01_wf : DotDims.WF S256x16x49x49 S256x16x49x64 S256x16x49x64 [3] [2] [2] [3] [0, 1] [0, 1]

variable [Facts₀]

def dot_S256x16x49x64_S256x16x49x64_S256x16x49x49_3_3_2_2_01_01 : DotDims S256x16x49x64 S256x16x49x64 S256x16x49x49 where
  lhsContracting := [3]
  rhsContracting := [3]
  lhsNonContracting := [2]
  rhsNonContracting := [2]
  lhsBatch := [0, 1]
  rhsBatch := [0, 1]
  wf := dot_S256x16x49x64_S256x16x49x64_S256x16x49x49_3_3_2_2_01_01_wf
def dot_S256x16x49x49_S256x16x49x64_S256x16x49x64_3_2_2_3_01_01 : DotDims S256x16x49x49 S256x16x49x64 S256x16x49x64 where
  lhsContracting := [3]
  rhsContracting := [2]
  lhsNonContracting := [2]
  rhsNonContracting := [3]
  lhsBatch := [0, 1]
  rhsBatch := [0, 1]
  wf := dot_S256x16x49x49_S256x16x49x64_S256x16x49x64_3_2_2_3_01_01_wf

class Facts : Prop extends Facts₀ where

variable [Facts]
-- ==== Proof.Spec.lean ====
/- One attention head as a function of three 49 × 64 matrices of extended reals: the scaled scores, each row's
   largest score, the exponential weights, their sum plus the small constant, and the weighted sum of the value rows.
   Both programs compute this function of each head's three matrices; the float constants stay as their words. -/
import Idealize.ShloMosaic.PureOps.Ideal
import Idealize.ShloMosaic.Lib.ValueIdx

noncomputable section

open scoped BigOperators

namespace Cert.Attn

open Idealize.ShloMosaic

/-- The scaled score of query row `q` against key row `k`: their dot product over the 64 features, times 1/8. -/
def score (Q K : Fin 49 → Fin 64 → EReal) (q k : Fin 49) : EReal :=
  (∑ d : Fin 64, Q q d * K k d) * Ideal.ofBits .f32 0x3E000000#32

/-- The largest score of query row `q`, the maximum taken from −∞ over the 49 keys. -/
def rowMax (Q K : Fin 49 → Fin 64 → EReal) (q : Fin 49) : EReal :=
  (Finset.univ : Finset (Fin 49)).fold max (Ideal.ofBits .f32 0xFF800000#32) (fun k => score Q K q k)

/-- The unnormalised weight of key `k` for query `q`: the exponential of the score less the row's maximum. -/
def weight (Q K : Fin 49 → Fin 64 → EReal) (q k : Fin 49) : EReal :=
  Ideal.exp (score Q K q k - rowMax Q K q)

/-- The normaliser of query row `q`: the sum of its weights plus the small constant. -/
def denom (Q K : Fin 49 → Fin 64 → EReal) (q : Fin 49) : EReal :=
  (∑ k : Fin 49, weight Q K q k) + Ideal.ofBits .f32 0x3089705F#32

/-- The head's output at query `q`, feature `d`: the value rows summed with the normalised weights. -/
def head (Q K V : Fin 49 → Fin 64 → EReal) (q : Fin 49) (d : Fin 64) : EReal :=
  ∑ k : Fin 49, Ideal.div (weight Q K q k) (denom Q K q) * V k d

/-- Head (B, h) of a [256, 16, 49, 64] array: its 49 × 64 matrix. -/
def headOf (x : (⟨4, ![256, 16, 49, 64]⟩ : Shape).Idx → EReal) (B : Fin 256) (h : Fin 16) : Fin 49 → Fin 64 → EReal :=
  fun q d => x (ValueIdx.ix4 B h q d)

/-- The whole result: at (B, h, q, d) the head function of head (B, h) of the three arguments. -/
def G4 (x0 x1 x2 : (⟨4, ![256, 16, 49, 64]⟩ : Shape).Idx → EReal) : (⟨4, ![256, 16, 49, 64]⟩ : Shape).Idx → EReal := fun i =>
  head (headOf x0 (i 0) (i 1)) (headOf x1 (i 0) (i 1)) (headOf x2 (i 0) (i 1)) (i 2) (i 3)

/-- Row `r` of a [4096, 49, 64] array (the heads listed along one axis): its 49 × 64 matrix. -/
def rows3 (x : (⟨3, ![4096, 49, 64]⟩ : Shape).Idx → EReal) (r : Fin 4096) : Fin 49 → Fin 64 → EReal :=
  fun q d => x (ValueIdx.ix3 r q d)

/-- The same result with the heads listed along one axis: at (r, q, d) the head function of row r of the three arrays. -/
def G3 (a0 a1 a2 : (⟨3, ![4096, 49, 64]⟩ : Shape).Idx → EReal) : (⟨3, ![4096, 49, 64]⟩ : Shape).Idx → EReal := fun i =>
  head (rows3 a0 (i 0)) (rows3 a1 (i 0)) (rows3 a2 (i 0)) (i 1) (i 2)

end Cert.Attn

end
-- ==== Proof.RefSpec.lean ====
/- The reference's result, read at an index (batch, head, query, feature), is the head function of that head's three
   49 × 64 matrices: stage by stage — scores, row maximum, weights, normaliser, weighted sum — over the read-at-an-index
   lemmas of the reference's operations. -/
import proofs.«138065_j25056839205158_2_alg».proof.Proof.Gen.ReferenceIdeal.Read
import proofs.«138065_j25056839205158_2_alg».proof.Proof.Spec
import Idealize.ShloMosaic.PureOps.Ideal.Laws

noncomputable section

open scoped BigOperators

namespace Cert.Attn.Ref

open Cert.ReferenceIdeal Cert.ReferenceIdeal.Gen Cert.ReferenceIdeal.Read Idealize.ShloMosaic Idealize.ShloMosaic.ValueIdx Cert.Attn

variable (x0 x1 x2 : (⟨S256x16x49x64, .f32⟩ : BufTy).Contents (Elt Ideal))

/-- The scaled product of queries and keys at (B, h, q, k) is the head's score. -/
theorem score_eq (B : Fin 256) (h : Fin 16) (q k : Fin 49) :
    val_main_v2 (F := Ideal) x0 x1 (ix4 B h q k) = score (headOf x0 B h) (headOf x1 B h) q k := by
  rw [val_main_v2_apply, val_main_v0_apply, val_main_v1_apply, val_main_cst_apply]
  have el : ∀ d : Fin 64, lidx_main_v0 (ix4 B h q k) d = ix4 B h q d := fun d => funext fun a => Fin.ext (by
    match a with | ⟨0, _⟩ => rfl | ⟨1, _⟩ => rfl | ⟨2, _⟩ => rfl | ⟨3, _⟩ => rfl)
  have er : ∀ d : Fin 64, ridx_main_v0 (ix4 B h q k) d = ix4 B h k d := fun d => funext fun a => Fin.ext (by
    match a with | ⟨0, _⟩ => rfl | ⟨1, _⟩ => rfl | ⟨2, _⟩ => rfl | ⟨3, _⟩ => rfl)
  simp only [el, er]
  rfl

/-- The reduction over the key axis, as a one-axis reduction with its inserted index. -/
theorem hred : S256x16x49x49.Reduces [3] S256x16x49 := by decide

/-- The maximum over the keys at (B, h, q) is the head's row maximum. -/
theorem max_eq (B : Fin 256) (h : Fin 16) (q : Fin 49) :
    val_main_v3 (F := Ideal) x0 x1 (ix3 B h q) = rowMax (headOf x0 B h) (headOf x1 B h) q := by
  unfold val_main_v3
  rw [Host.reduce_eq_fold_single FloatOps.maximumf _ _ reducesTo_S256x16x49x49_S256x16x49_d3 hred h_S_ (ix3 B h q)]
  have hf : (val_main_v2 (F := Ideal) x0 x1 ∘ hred.lift (ix3 B h q))
      = fun k : Fin 49 => score (headOf x0 B h) (headOf x1 B h) q k := funext fun k => by
    have hl : hred.lift (ix3 B h q) k = ix4 B h q k := funext fun a => Fin.ext (by
      match a with | ⟨0, _⟩ => rfl | ⟨1, _⟩ => rfl | ⟨2, _⟩ => rfl | ⟨3, _⟩ => rfl)
    show val_main_v2 (F := Ideal) x0 x1 (hred.lift (ix3 B h q) k) = _
    rw [hl]
    exact score_eq x0 x1 B h q k
  rw [hf]
  rfl

/-- The exponential of the score less the broadcast row maximum is the head's weight. -/
theorem weight_eq (B : Fin 256) (h : Fin 16) (q k : Fin 49) :
    val_main_v7 (F := Ideal) x0 x1 (ix4 B h q k) = weight (headOf x0 B h) (headOf x1 B h) q k := by
  rw [val_main_v7_apply, val_main_v6_apply, val_main_v5_apply, val_main_v4_apply, score_eq]
  have e : idx_main_v4 (idx_main_v5 (ix4 B h q k)) = ix3 B h q := funext fun a => Fin.ext (by
    match a with | ⟨0, _⟩ => rfl | ⟨1, _⟩ => rfl | ⟨2, _⟩ => rfl)
  rw [e, max_eq]
  rfl

/-- The broadcast sum of the weights plus the small constant is the head's normaliser. -/
theorem denom_eq (B : Fin 256) (h : Fin 16) (q k : Fin 49) :
    val_main_v12 (F := Ideal) x0 x1 (ix4 B h q k) = denom (headOf x0 B h) (headOf x1 B h) q := by
  rw [val_main_v12_apply, val_main_v11_apply, val_main_v9_apply, val_main_v10_apply, val_main_cst_2_apply]
  have e : idx_main_v9 (idx_main_v12 (ix4 B h q k)) = ix3 B h q := funext fun a => Fin.ext (by
    match a with | ⟨0, _⟩ => rfl | ⟨1, _⟩ => rfl | ⟨2, _⟩ => rfl)
  rw [e, val_main_v8_apply, val_main_cst_1_apply]
  have e8 : ∀ k' : Fin 49, idx_main_v8 (ix3 B h q) k' = ix4 B h q k' := fun k' => funext fun a => Fin.ext (by
    match a with | ⟨0, _⟩ => rfl | ⟨1, _⟩ => rfl | ⟨2, _⟩ => rfl | ⟨3, _⟩ => rfl)
  simp only [e8, weight_eq]
  show (Ideal.ofBits .f32 0x00000000#32 + _) + _ = _
  rw [Ideal.ofBits_zero_f32, zero_add]
  rfl

/-- The product of the normalised weights with the values at (B, h, q, d) is the head's output. -/
theorem out_eq (B : Fin 256) (h : Fin 16) (q : Fin 49) (d : Fin 64) :
    val_main_v14 (F := Ideal) x0 x1 x2 (ix4 B h q d)
      = head (headOf x0 B h) (headOf x1 B h) (headOf x2 B h) q d := by
  rw [val_main_v14_apply]
  unfold head
  refine Finset.sum_congr rfl fun k _ => ?_
  have el : lidx_main_v14 (ix4 B h q d) k = ix4 B h q k := funext fun a => Fin.ext (by
    match a with | ⟨0, _⟩ => rfl | ⟨1, _⟩ => rfl | ⟨2, _⟩ => rfl | ⟨3, _⟩ => rfl)
  have er : ridx_main_v14 (ix4 B h q d) k = ix4 B h k d := funext fun a => Fin.ext (by
    match a with | ⟨0, _⟩ => rfl | ⟨1, _⟩ => rfl | ⟨2, _⟩ => rfl | ⟨3, _⟩ => rfl)
  rw [el, er, val_main_v13_apply, weight_eq, denom_eq]
  rfl

/-- The reference's last stage is the head function of each head of the arguments. -/
theorem ref_is_G4 : val_main_v14 (F := Ideal) x0 x1 x2 = G4 x0 x1 x2 := funext fun i => by
  obtain ⟨B, h, q, d, rfl⟩ : ∃ (B : Fin 256) (h : Fin 16) (q : Fin 49) (d : Fin 64), i = ix4 B h q d :=
    ⟨i 0, i 1, i 2, i 3, eq_ix4 i⟩
  exact out_eq x0 x1 x2 B h q d

end Cert.Attn.Ref

end
-- ==== Proof.Payload.lean ====
/- The kernel body's stored value, read at (row, query, feature) of a 128-row block, is the head function of that row's three
   49 × 64 matrices: the two block products as sums over their one contracted axis, the row maximum and the row sum as a
   fold and a sum over the key axis, the keepdims casts and broadcasts read at an index. -/
import proofs.«138065_j25056839205158_2_alg».proof.Proof.Gen.KernelIdeal.Skeleton
import proofs.«138065_j25056839205158_2_alg».proof.Proof.Spec
import Idealize.ShloMosaic.Lib.Pipeline.Value
import Idealize.ShloMosaic.Lib.ValueIdx
import Idealize.ShloMosaic.PureOps.Ideal.Laws

noncomputable section

open scoped BigOperators

namespace Cert.Attn.Ker

open Cert.KernelIdeal Cert.KernelIdeal.Gen Idealize.ShloMosaic Idealize.ShloMosaic.ValueIdx Cert.Attn

/-- Queries against keys: contract the feature axis of both, batch over the rows. -/
abbrev D1 := dot_S128x49x64_S128x49x64_S128x49x49_2_2_1_1_0_0
/-- Weights against values: contract the key axis, batch over the rows. -/
abbrev D2 := dot_S128x49x49_S128x49x64_S128x49x64_2_1_1_2_0_0

/-! ## The two products' operand indices -/

theorem D1_lhs0 (i : S128x49x49.Idx) (c : D1.contr.Idx) : (D1.lhsIdx i c 0).val = (i 0).val := by
  unfold DotDims.lhsIdx
  rw [dif_pos (show (0 : Fin S128x49x64.rank) ∈ D1.lhsBatch by decide)]
  rfl
theorem D1_lhs1 (i : S128x49x49.Idx) (c : D1.contr.Idx) : (D1.lhsIdx i c 1).val = (i 1).val := by
  unfold DotDims.lhsIdx
  rw [dif_neg (show ¬(1 : Fin S128x49x64.rank) ∈ D1.lhsBatch by decide), dif_pos (show (1 : Fin S128x49x64.rank) ∈ D1.lhsNonContracting by decide)]
  rfl
theorem D1_lhs2 (i : S128x49x49.Idx) (c : D1.contr.Idx) : (D1.lhsIdx i c 2).val = (c ⟨0, by decide⟩).val :=
  D1.lhsIdx_val_of_single rfl i c
theorem D1_rhs0 (i : S128x49x49.Idx) (c : D1.contr.Idx) : (D1.rhsIdx i c 0).val = (i 0).val := by
  unfold DotDims.rhsIdx
  rw [dif_pos (show (0 : Fin S128x49x64.rank) ∈ D1.rhsBatch by decide)]
  rfl
theorem D1_rhs1 (i : S128x49x49.Idx) (c : D1.contr.Idx) : (D1.rhsIdx i c 1).val = (i 2).val := by
  unfold DotDims.rhsIdx
  rw [dif_neg (show ¬(1 : Fin S128x49x64.rank) ∈ D1.rhsBatch by decide), dif_pos (show (1 : Fin S128x49x64.rank) ∈ D1.rhsNonContracting by decide)]
  rfl
theorem D1_rhs2 (i : S128x49x49.Idx) (c : D1.contr.Idx) : (D1.rhsIdx i c 2).val = (c ⟨0, by decide⟩).val :=
  D1.rhsIdx_val_of_single rfl i c

theorem D2_lhs0 (i : S128x49x64.Idx) (c : D2.contr.Idx) : (D2.lhsIdx i c 0).val = (i 0).val := by
  unfold DotDims.lhsIdx
  rw [dif_pos (show (0 : Fin S128x49x49.rank) ∈ D2.lhsBatch by decide)]
  rfl
theorem D2_lhs1 (i : S128x49x64.Idx) (c : D2.contr.Idx) : (D2.lhsIdx i c 1).val = (i 1).val := by
  unfold DotDims.lhsIdx
  rw [dif_neg (show ¬(1 : Fin S128x49x49.rank) ∈ D2.lhsBatch by decide), dif_pos (show (1 : Fin S128x49x49.rank) ∈ D2.lhsNonContracting by decide)]
  rfl
theorem D2_lhs2 (i : S128x49x64.Idx) (c : D2.contr.Idx) : (D2.lhsIdx i c 2).val = (c ⟨0, by decide⟩).val :=
  D2.lhsIdx_val_of_single rfl i c
theorem D2_rhs0 (i : S128x49x64.Idx) (c : D2.contr.Idx) : (D2.rhsIdx i c 0).val = (i 0).val := by
  unfold DotDims.rhsIdx
  rw [dif_pos (show (0 : Fin S128x49x64.rank) ∈ D2.rhsBatch by decide)]
  rfl
theorem D2_rhs1 (i : S128x49x64.Idx) (c : D2.contr.Idx) : (D2.rhsIdx i c 1).val = (c ⟨0, by decide⟩).val :=
  D2.rhsIdx_val_of_single rfl i c
theorem D2_rhs2 (i : S128x49x64.Idx) (c : D2.contr.Idx) : (D2.rhsIdx i c 2).val = (i 2).val := by
  unfold DotDims.rhsIdx
  rw [dif_neg (show ¬(2 : Fin S128x49x64.rank) ∈ D2.rhsBatch by decide), dif_pos (show (2 : Fin S128x49x64.rank) ∈ D2.rhsNonContracting by decide)]
  rfl

/-- The first product at (b, q, k): the sum over the 64 features of row b's query q times key k. -/
theorem mm1_apply (l r : FVec Ideal S128x49x64 .bf16) (b : Fin 128) (q k : Fin 49) :
    matmul D1 none l r (constant (F := Ideal) S128x49x49 .f32 0x00000000#32) (ix3 b q k)
      = ∑ d : Fin 64, l (ix3 b q d) * r (ix3 b k d) := by
  refine (Ideal.matmul_constant_zero_apply D1 none l r (ix3 b q k)).trans ?_
  rw [← Equiv.sum_comp (contrEquiv1 D1 64 rfl rfl).symm]
  refine Finset.sum_congr rfl fun d _ => ?_
  have hd := contrEquiv1_symm_val D1 64 rfl rfl d
  have el : D1.lhsIdx (ix3 b q k) ((contrEquiv1 D1 64 rfl rfl).symm d) = ix3 b q d := funext fun a => Fin.ext (by
    match a with
    | ⟨0, _⟩ => exact D1_lhs0 _ _
    | ⟨1, _⟩ => exact D1_lhs1 _ _
    | ⟨2, _⟩ => exact (D1_lhs2 _ _).trans hd)
  have er : D1.rhsIdx (ix3 b q k) ((contrEquiv1 D1 64 rfl rfl).symm d) = ix3 b k d := funext fun a => Fin.ext (by
    match a with
    | ⟨0, _⟩ => exact D1_rhs0 _ _
    | ⟨1, _⟩ => exact D1_rhs1 _ _
    | ⟨2, _⟩ => exact (D1_rhs2 _ _).trans hd)
  rw [el, er]

/-- The second product at (b, q, d): the sum over the 49 keys of row b's weight (q, k) times value (k, d). -/
theorem mm2_apply (l : FVec Ideal S128x49x49 .bf16) (r : FVec Ideal S128x49x64 .bf16) (b : Fin 128) (q : Fin 49) (d : Fin 64) :
    matmul D2 none l r (constant (F := Ideal) S128x49x64 .f32 0x00000000#32) (ix3 b q d)
      = ∑ k : Fin 49, l (ix3 b q k) * r (ix3 b k d) := by
  refine (Ideal.matmul_constant_zero_apply D2 none l r (ix3 b q d)).trans ?_
  rw [← Equiv.sum_comp (contrEquiv1 D2 49 rfl rfl).symm]
  refine Finset.sum_congr rfl fun k _ => ?_
  have hk := contrEquiv1_symm_val D2 49 rfl rfl k
  have el : D2.lhsIdx (ix3 b q d) ((contrEquiv1 D2 49 rfl rfl).symm k) = ix3 b q k := funext fun a => Fin.ext (by
    match a with
    | ⟨0, _⟩ => exact D2_lhs0 _ _
    | ⟨1, _⟩ => exact D2_lhs1 _ _
    | ⟨2, _⟩ => exact (D2_lhs2 _ _).trans hk)
  have er : D2.rhsIdx (ix3 b q d) ((contrEquiv1 D2 49 rfl rfl).symm k) = ix3 b k d := funext fun a => Fin.ext (by
    match a with
    | ⟨0, _⟩ => exact D2_rhs0 _ _
    | ⟨1, _⟩ => exact (D2_rhs1 _ _).trans hk
    | ⟨2, _⟩ => exact D2_rhs2 _ _)
  rw [el, er]

/-! ## The keepdims cast and the broadcast along the key axis, read at an index -/

/-- A [128, 49] vector viewed [128, 49, 1] reads (b, q) at (b, q, 0). -/
theorem keep_apply {α : Type} (v : S128x49.Idx → α) (b : Fin 128) (q : Fin 49) (z : Fin 1) :
    shapeCast S128x49x1 v shapeCasts_S128x49_S128x49x1 (ix3 b q z) = v (ix2 b q) :=
  shapeCast_apply v shapeCasts_S128x49_S128x49x1 (ix3 b q z) (ix2 b q) (by
    rw [Shape.rowMajor_val_two, Shape.rowMajor_val_three]
    show b.val * 49 + q.val = (b.val * 49 + q.val) * 1 + z.val
    have := z.isLt
    omega)

/-- A [128, 49, 1] vector broadcast along the key axis reads (b, q, 0) at every (b, q, k). -/
theorem col_apply {α : Type} (v : S128x49x1.Idx → α) (b : Fin 128) (q k : Fin 49) :
    broadcastTo S128x49x49 v broadcasts_S128x49x1_S128x49x49 (ix3 b q k) = v (ix3 b q (0 : Fin 1)) :=
  broadcastTo_apply v broadcasts_S128x49x1_S128x49x49 (ix3 b q k) (ix3 b q (0 : Fin 1)) (fun a => match a with
    | ⟨0, _⟩ => by show b.val = if (128 : Nat) = 1 then 0 else b.val; rw [if_neg (by decide)]
    | ⟨1, _⟩ => by show q.val = if (49 : Nat) = 1 then 0 else q.val; rw [if_neg (by decide)]
    | ⟨2, _⟩ => by show 0 = if (1 : Nat) = 1 then 0 else k.val; rw [if_pos rfl])

/-! ## The body's stages -/

/-- Row `b` of a block: its 49 × 64 matrix. -/
def rowsOf (x : S128x49x64.Idx → EReal) (b : Fin 128) : Fin 49 → Fin 64 → EReal := fun q d => x (ix3 b q d)

/-- The scaled scores of the block. -/
def sc (x0 x1 : Vec Ideal S128x49x64 .f32) : FVec Ideal S128x49x49 .f32 :=
  mulf (matmul D1 none (truncf .bf16 (shapeCast S128x49x64 x0 shapeCasts_S128x49x64_S128x49x64) bitsLt_bf16_f32)
      (truncf .bf16 (shapeCast S128x49x64 x1 shapeCasts_S128x49x64_S128x49x64) bitsLt_bf16_f32)
      (constant (F := Ideal) S128x49x49 .f32 0x00000000#32))
    (broadcast S128x49x49 (Scalar.ofBits (F := Ideal) .f32 0x3E000000#32))

/-- Each row's largest score. -/
def mx (x0 x1 : Vec Ideal S128x49x64 .f32) : FVec Ideal S128x49 .f32 :=
  multiReduction .maximumf [2] S128x49 (sc x0 x1) 0xFF800000#32 reduces_S128x49x49_S128x49 (.inl rfl) rfl

/-- The exponential weights. -/
def ex (x0 x1 : Vec Ideal S128x49x64 .f32) : FVec Ideal S128x49x49 .f32 :=
  exp (subf (sc x0 x1) (broadcastTo S128x49x49 (shapeCast S128x49x1 (mx x0 x1) shapeCasts_S128x49_S128x49x1) broadcasts_S128x49x1_S128x49x49))

/-- The normalisers, broadcast along the key axis. -/
def dn (x0 x1 : Vec Ideal S128x49x64 .f32) : FVec Ideal S128x49x49 .f32 :=
  broadcastTo S128x49x49 (addf (shapeCast S128x49x1 (multiReduction .add [2] S128x49 (ex x0 x1) 0x00000000#32 reduces_S128x49x49_S128x49 (.inl rfl) rfl) shapeCasts_S128x49_S128x49x1)
    (broadcast S128x49x1 (Scalar.ofBits (F := Ideal) .f32 0x3089705F#32))) broadcasts_S128x49x1_S128x49x49

/-- The stored value is the product of the normalised weights with the values. -/
theorem pay_eq (x0 x1 x2 : Vec Ideal S128x49x64 .f32) :
    k0_pay1 (F := Ideal) x0 x1 x2
      = matmul D2 none (truncf .bf16 (divf (ex x0 x1) (dn x0 x1)) bitsLt_bf16_f32)
          (truncf .bf16 (shapeCast S128x49x64 x2 shapeCasts_S128x49x64_S128x49x64) bitsLt_bf16_f32)
          (constant (F := Ideal) S128x49x64 .f32 0x00000000#32) := rfl

variable (x0 x1 x2 : Vec Ideal S128x49x64 .f32)

theorem sc_apply (b : Fin 128) (q k : Fin 49) :
    sc x0 x1 (ix3 b q k) = score (rowsOf x0 b) (rowsOf x1 b) q k := by
  show (matmul D1 none (truncf .bf16 (shapeCast S128x49x64 x0 shapeCasts_S128x49x64_S128x49x64) bitsLt_bf16_f32)
      (truncf .bf16 (shapeCast S128x49x64 x1 shapeCasts_S128x49x64_S128x49x64) bitsLt_bf16_f32)
      (constant (F := Ideal) S128x49x49 .f32 0x00000000#32) (ix3 b q k)) * Ideal.ofBits .f32 0x3E000000#32 = _
  rw [mm1_apply, shapeCast_self, shapeCast_self]
  rfl

theorem lift_eq (b : Fin 128) (q k : Fin 49) : reduces_S128x49x49_S128x49.lift (ix2 b q) k = ix3 b q k :=
  funext fun a => Fin.ext (by match a with | ⟨0, _⟩ => rfl | ⟨1, _⟩ => rfl | ⟨2, _⟩ => rfl)

theorem mx_apply (b : Fin 128) (q : Fin 49) :
    mx x0 x1 (ix2 b q) = rowMax (rowsOf x0 b) (rowsOf x1 b) q := by
  unfold mx
  refine (Ideal.multiReduction_maximumf_single (sc x0 x1) 0xFF800000#32 reduces_S128x49x49_S128x49 (.inl rfl) rfl (ix2 b q)).trans ?_
  have hf : (sc x0 x1 ∘ reduces_S128x49x49_S128x49.lift (ix2 b q))
      = fun k : Fin 49 => score (rowsOf x0 b) (rowsOf x1 b) q k := funext fun k => by
    exact (congrArg (sc x0 x1) (lift_eq b q k)).trans (sc_apply x0 x1 b q k)
  rw [hf]
  rfl

theorem ex_apply (b : Fin 128) (q k : Fin 49) :
    ex x0 x1 (ix3 b q k) = weight (rowsOf x0 b) (rowsOf x1 b) q k := by
  show Ideal.exp (sc x0 x1 (ix3 b q k) - broadcastTo S128x49x49 (shapeCast S128x49x1 (mx x0 x1) shapeCasts_S128x49_S128x49x1) broadcasts_S128x49x1_S128x49x49 (ix3 b q k)) = _
  rw [col_apply, keep_apply, sc_apply, mx_apply]
  rfl

theorem dn_apply (b : Fin 128) (q k : Fin 49) :
    dn x0 x1 (ix3 b q k) = denom (rowsOf x0 b) (rowsOf x1 b) q := by
  unfold dn
  rw [col_apply]
  show (shapeCast S128x49x1 (multiReduction .add [2] S128x49 (ex x0 x1) 0x00000000#32 reduces_S128x49x49_S128x49 (.inl rfl) rfl) shapeCasts_S128x49_S128x49x1 (ix3 b q (0 : Fin 1)))
      + Ideal.ofBits .f32 0x3089705F#32 = _
  rw [keep_apply]
  refine congrArg (· + Ideal.ofBits .f32 0x3089705F#32) ((Ideal.multiReduction_add_single (ex x0 x1) 0x00000000#32 reduces_S128x49x49_S128x49 (.inl rfl) rfl (ix2 b q)).trans ?_)
  refine Finset.sum_congr rfl fun k' _ => ?_
  exact (congrArg (ex x0 x1) (lift_eq b q k')).trans (ex_apply x0 x1 b q k')

/-- THE STORED VALUE at (b, q, d) is the head function of row b of the three loaded blocks. -/
theorem pay_apply (b : Fin 128) (q : Fin 49) (d : Fin 64) :
    k0_pay1 (F := Ideal) x0 x1 x2 (ix3 b q d) = head (rowsOf x0 b) (rowsOf x1 b) (rowsOf x2 b) q d := by
  rw [pay_eq, mm2_apply]
  unfold head
  refine Finset.sum_congr rfl fun k _ => ?_
  show Ideal.div (ex x0 x1 (ix3 b q k)) (dn x0 x1 (ix3 b q k)) * (shapeCast S128x49x64 x2 shapeCasts_S128x49x64_S128x49x64) (ix3 b k d) = _
  rw [ex_apply, dn_apply, shapeCast_self]
  rfl

end Cert.Attn.Ker

end
-- ==== Proof.Blocks.lean ====
/- From blocks to the array. Grid point t handles rows 128·t … 128·t + 127 of the [4096, 49, 64] arrays: what it writes back is
   the block of ONE whole-array function — the head function of each row of the three input arrays —, the 32 blocks cover
   the output array, so after the run the output array is that function. -/
import proofs.«138065_j25056839205158_2_alg».proof.Proof.Gen.KernelIdeal.Frame
import proofs.«138065_j25056839205158_2_alg».proof.Proof.Payload
import Idealize.ShloMosaic.Lib.Pipeline.Value

noncomputable section

open scoped BigOperators

namespace Cert.Attn.Ker

open Cert.KernelIdeal Cert.KernelIdeal.Gen Idealize.ShloMosaic Idealize.ShloMosaic.TcCoe Idealize.SL.Sem Idealize.ShloMosaic.ValueIdx Cert.Attn
open Idealize.ShloMosaic.Pipeline (Dat)

variable (m : (ℓ : Loc nD τ sig) → Buf (Elt Ideal) ℓ) (ρ : Dev nD → PrngReg)

theorem hz : (![0, 0, 0] : Fin 3 → Nat) = fun _ => 0 := funext fun a => by fin_cases a <;> rfl

/-- The four index maps, decided over the grid: point t's block is block (t, 0, 0) of each array. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0) :=
  (by decide +kernel : ∀ t : Fin grid0.N, _)

/-- Row b of the query window's block at point t is row 128·t + b of its array. -/
theorem iblk0_apply (c : Dev nD) (t : Fin cfg0.N) (b : Fin 128) (q : Fin 49) (d : Fin 64) (r : Fin 4096) (hr : r.val = t.val * 128 + b.val) :
    (iblk m c 0 t : Vec Ideal S128x49x64 .f32) (ix3 b q d) = (V m c main_v0 : S4096x49x64.Idx → EReal) (ix3 r q d) := by
  obtain ⟨⟨h0, h1, h2⟩, -⟩ := idx_facts t
  unfold iblk
  rw [View.read_apply]
  show V m c main_v0 _ = V m c main_v0 _
  refine congrArg (V m c main_v0) ?_
  funext a
  apply Fin.ext
  match a with
  | ⟨0, _⟩ => show win0_0.index t (0 : Fin 3) * 128 + 1 * b.val = r.val; rw [h0, hr]; omega
  | ⟨1, _⟩ => show win0_0.index t (1 : Fin 3) * 49 + 1 * q.val = q.val; rw [h1]; omega
  | ⟨2, _⟩ => show win0_0.index t (2 : Fin 3) * 64 + 1 * d.val = d.val; rw [h2]; omega

/-- Row b of the key window's block at point t is row 128·t + b of its array. -/
theorem iblk1_apply (c : Dev nD) (t : Fin cfg0.N) (b : Fin 128) (q : Fin 49) (d : Fin 64) (r : Fin 4096) (hr : r.val = t.val * 128 + b.val) :
    (iblk m c 1 t : Vec Ideal S128x49x64 .f32) (ix3 b q d) = (V m c main_v1 : S4096x49x64.Idx → EReal) (ix3 r q d) := by
  obtain ⟨-, ⟨h0, h1, h2⟩, -⟩ := idx_facts t
  unfold iblk
  rw [View.read_apply]
  show V m c main_v1 _ = V m c main_v1 _
  refine congrArg (V m c main_v1) ?_
  funext a
  apply Fin.ext
  match a with
  | ⟨0, _⟩ => show win0_1.index t (0 : Fin 3) * 128 + 1 * b.val = r.val; rw [h0, hr]; omega
  | ⟨1, _⟩ => show win0_1.index t (1 : Fin 3) * 49 + 1 * q.val = q.val; rw [h1]; omega
  | ⟨2, _⟩ => show win0_1.index t (2 : Fin 3) * 64 + 1 * d.val = d.val; rw [h2]; omega

/-- Row b of the value window's block at point t is row 128·t + b of its array. -/
theorem iblk2_apply (c : Dev nD) (t : Fin cfg0.N) (b : Fin 128) (q : Fin 49) (d : Fin 64) (r : Fin 4096) (hr : r.val = t.val * 128 + b.val) :
    (iblk m c 2 t : Vec Ideal S128x49x64 .f32) (ix3 b q d) = (V m c main_v2 : S4096x49x64.Idx → EReal) (ix3 r q d) := by
  obtain ⟨-, -, ⟨h0, h1, h2⟩, -⟩ := idx_facts t
  unfold iblk
  rw [View.read_apply]
  show V m c main_v2 _ = V m c main_v2 _
  refine congrArg (V m c main_v2) ?_
  funext a
  apply Fin.ext
  match a with
  | ⟨0, _⟩ => show win0_2.index t (0 : Fin 3) * 128 + 1 * b.val = r.val; rw [h0, hr]; omega
  | ⟨1, _⟩ => show win0_2.index t (1 : Fin 3) * 49 + 1 * q.val = q.val; rw [h1]; omega
  | ⟨2, _⟩ => show win0_2.index t (2 : Fin 3) * 64 + 1 * d.val = d.val; rw [h2]; omega

/-- WHAT POINT t WRITES BACK is block t of the head function of the rows of the three arrays as the region finds them. -/
theorem flushed_eq (c : Dev nD) (t : Fin cfg0.N) :
    (dats m 0 c).flushed 3 t = ((cfg0.win 3).blk t).view.read (Elt Ideal) (G3 (V m c main_v0) (V m c main_v1) (V m c main_v2)) := by
  show (cfg0.win 3).cut (grid0.coords t) ((dats m 0 c).after 3 t) = _
  rw [after0_3]
  unfold out0_3
  rw [View.canon_unit_zero hz]
  simp only [View.ld_unit_zero (S := S128x49x64) hz]
  funext y
  obtain ⟨b, q, d, rfl⟩ : ∃ (b : Fin 128) (q : Fin 49) (d : Fin 64), y = ix3 b q d := ⟨y 0, y 1, y 2, eq_ix3 y⟩
  obtain ⟨-, -, -, h0, h1, h2⟩ := idx_facts t
  have hN : cfg0.N = 32 := N_0
  have hr : t.val * 128 + b.val < 4096 := by have := t.isLt; have := b.isLt; omega
  show k0_pay1 (F := Ideal) (iblk m c 0 t) (iblk m c 1 t) (iblk m c 2 t) (ix3 b q d)
    = G3 (V m c main_v0) (V m c main_v1) (V m c main_v2) (((cfg0.win 3).blk t).view.emb (ix3 b q d))
  have he : ((cfg0.win 3).blk t).view.emb (ix3 b q d) = ix3 (⟨t.val * 128 + b.val, hr⟩ : Fin 4096) q d := by
    funext a
    apply Fin.ext
    match a with
    | ⟨0, _⟩ => show win0_3.index t (0 : Fin 3) * 128 + 1 * b.val = t.val * 128 + b.val; rw [h0]; omega
    | ⟨1, _⟩ => show win0_3.index t (1 : Fin 3) * 49 + 1 * q.val = q.val; rw [h1]; omega
    | ⟨2, _⟩ => show win0_3.index t (2 : Fin 3) * 64 + 1 * d.val = d.val; rw [h2]; omega
  rw [he]
  refine (pay_apply (iblk m c 0 t) (iblk m c 1 t) (iblk m c 2 t) b q d).trans ?_
  have e0 : rowsOf (iblk m c 0 t) b = rows3 (V m c main_v0) ⟨t.val * 128 + b.val, hr⟩ :=
    funext fun q' => funext fun d' => iblk0_apply m c t b q' d' ⟨t.val * 128 + b.val, hr⟩ rfl
  have e1 : rowsOf (iblk m c 1 t) b = rows3 (V m c main_v1) ⟨t.val * 128 + b.val, hr⟩ :=
    funext fun q' => funext fun d' => iblk1_apply m c t b q' d' ⟨t.val * 128 + b.val, hr⟩ rfl
  have e2 : rowsOf (iblk m c 2 t) b = rows3 (V m c main_v2) ⟨t.val * 128 + b.val, hr⟩ :=
    funext fun q' => funext fun d' => iblk2_apply m c t b q' d' ⟨t.val * 128 + b.val, hr⟩ rfl
  rw [e0, e1, e2]
  rfl

/-- An index of the output array is in point t's block iff each coordinate is in the block's range on its axis. -/
theorem mem_blk (t : Fin cfg0.N) (i : S4096x49x64.Idx) :
    i ∈ ((cfg0.win 3).blk t).view.set ↔ ∀ a : Fin 3, win0_3.index t a * S128x49x64.size a ≤ (i a).val ∧ (i a).val < win0_3.index t a * S128x49x64.size a + S128x49x64.size a := by
  show i ∈ ((View.whole main_v3).slice (win0_3.rect t)).set ↔ _
  rw [View.set_slice_whole, Rect.mem_set_unit]
  exact Iff.rfl

/-- Row r of the output array is in the block of point r / 128. -/
theorem cover (i : S4096x49x64.Idx) : ∃ t : Fin cfg0.N, (cfg0.win 3).flush t = true ∧ i ∈ ((cfg0.win 3).blk t).view.set := by
  have hi0 : (i 0).val < 4096 := (i 0).isLt
  have hi1 : (i 1).val < 49 := (i 1).isLt
  have hi2 : (i 2).val < 64 := (i 2).isLt
  have hN : cfg0.N = 32 := N_0
  have ht : (i 0).val / 128 < cfg0.N := by rw [hN]; omega
  obtain ⟨-, -, -, h0, h1, h2⟩ := idx_facts ⟨(i 0).val / 128, ht⟩
  refine ⟨⟨(i 0).val / 128, ht⟩, flush0_3 _, ?_⟩
  rw [mem_blk]
  intro a
  match a with
  | ⟨0, _⟩ =>
    show win0_3.index ⟨(i 0).val / 128, ht⟩ (0 : Fin 3) * 128 ≤ (i 0).val ∧ (i 0).val < win0_3.index ⟨(i 0).val / 128, ht⟩ (0 : Fin 3) * 128 + 128
    rw [h0]; show (i 0).val / 128 * 128 ≤ (i 0).val ∧ (i 0).val < (i 0).val / 128 * 128 + 128; omega
  | ⟨1, _⟩ =>
    show win0_3.index ⟨(i 0).val / 128, ht⟩ (1 : Fin 3) * 49 ≤ (i 1).val ∧ (i 1).val < win0_3.index ⟨(i 0).val / 128, ht⟩ (1 : Fin 3) * 49 + 49
    rw [h1]; omega
  | ⟨2, _⟩ =>
    show win0_3.index ⟨(i 0).val / 128, ht⟩ (2 : Fin 3) * 64 ≤ (i 2).val ∧ (i 2).val < win0_3.index ⟨(i 0).val / 128, ht⟩ (2 : Fin 3) * 64 + 64
    rw [h2]; omega

/-- THE OUTPUT ARRAY after the run: the head function of the rows of the three input arrays. -/
theorem final (c : Dev nD) : (dats m 0 c).arrAt 3 cfg0.N = G3 (V m c main_v0) (V m c main_v1) (V m c main_v2) :=
  (dats m 0 c).arrAt_eq_of_cover 3 (G3 (V m c main_v0) (V m c main_v1) (V m c main_v2)) (fun t _ => flushed_eq m c t) cover

end Cert.Attn.Ker

end
-- ==== Proof.Host.lean ====
/- The host side around the region. Before it, each argument is re-laid as [4096, 49, 64]: row 16·B + h of the re-laid array is
   head (B, h) of the argument. After it, the output is re-laid back to [256, 16, 49, 64]. So the program's result is, at
   (B, h, q, d), the head function of head (B, h) of the three arguments. -/
import proofs.«138065_j25056839205158_2_alg».proof.Proof.Blocks
import Idealize.ShloMosaic.Lib.StableHlo.Run

noncomputable section

open scoped BigOperators

namespace Cert.Attn.Ker

open Cert.KernelIdeal Cert.KernelIdeal.Gen Idealize.ShloMosaic Idealize.ShloMosaic.TcCoe Idealize.SL.Sem Idealize.ShloMosaic.ValueIdx Cert.Attn
open Idealize.ShloMosaic.StableHlo
open Idealize.ShloMosaic.Pipeline (Dat)

variable (m : (ℓ : Loc nD τ sig) → Buf (Elt Ideal) ℓ) (ρ : Dev nD → PrngReg)

/-- The region finds the re-laid queries. -/
theorem V_v0 (c : Dev nD) : (V m c main_v0 : S4096x49x64.Idx → EReal)
    = shapeCast S4096x49x64 (m ((c : Thread nD τ).loc main_arg0) : S256x16x49x64.Idx → EReal) shapeCasts_S256x16x49x64_S4096x49x64 := by
  show StableHlo.after hostOps0 (fun b => m (c, b)) (Proc.devRef .tc main_v0) = _
  after_results
  rfl

/-- The region finds the re-laid keys. -/
theorem V_v1 (c : Dev nD) : (V m c main_v1 : S4096x49x64.Idx → EReal)
    = shapeCast S4096x49x64 (m ((c : Thread nD τ).loc main_arg1) : S256x16x49x64.Idx → EReal) shapeCasts_S256x16x49x64_S4096x49x64 := by
  show StableHlo.after hostOps0 (fun b => m (c, b)) (Proc.devRef .tc main_v1) = _
  after_results
  rfl

/-- The region finds the re-laid values. -/
theorem V_v2 (c : Dev nD) : (V m c main_v2 : S4096x49x64.Idx → EReal)
    = shapeCast S4096x49x64 (m ((c : Thread nD τ).loc main_arg2) : S256x16x49x64.Idx → EReal) shapeCasts_S256x16x49x64_S4096x49x64 := by
  show StableHlo.after hostOps0 (fun b => m (c, b)) (Proc.devRef .tc main_v2) = _
  after_results
  rfl

/-- A [256, 16, 49, 64] array re-laid as [4096, 49, 64]: row 16·B + h is head (B, h). -/
theorem rows_relaid (x : S256x16x49x64.Idx → EReal) (B : Fin 256) (h : Fin 16) (r : Fin 4096) (hr : r.val = B.val * 16 + h.val) :
    rows3 (shapeCast S4096x49x64 x shapeCasts_S256x16x49x64_S4096x49x64) r = headOf x B h := by
  funext q d
  show shapeCast S4096x49x64 x shapeCasts_S256x16x49x64_S4096x49x64 (ix3 r q d) = x (ix4 B h q d)
  exact shapeCast_apply x shapeCasts_S256x16x49x64_S4096x49x64 (ix3 r q d) (ix4 B h q d) (by
    rw [Shape.rowMajor_val_four, Shape.rowMajor_val_three]
    show ((B.val * 16 + h.val) * 49 + q.val) * 64 + d.val = (r.val * 49 + q.val) * 64 + d.val
    rw [hr])

/-- After the last host operation the result buffer holds the output array re-laid. -/
theorem tail_v4 (c : Dev nD) : Pipeline.afterTail₀ cfgs (dats m) 0 (V0 m) [hostOps1] c main_v4
    = shapeCast S256x16x49x64 ((dats m 0 c).arrAt 3 cfg0.N : S4096x49x64.Idx → EReal) shapeCasts_S4096x49x64_S256x16x49x64 := by
  unfold Pipeline.afterTail₀
  show StableHlo.after hostOps1 _ (Proc.devRef .tc main_v4) = _
  after_results
  have hw : Pipeline.withArrays (cfgs 0).spec c (V0 m c) (fun w => (dats m 0 c).arrAt w (cfgs 0).N) (Proc.devRef .tc main_v3)
      = (dats m 0 c).arrAt 3 cfg0.N :=
    Pipeline.withArrays_arr spec0 launch0.win.arr_inj c (V0 m c) (fun w => (dats m 0 c).arrAt w cfg0.N) 3
  rw [hw]
  rfl

/-- THE RESULT: at (B, h, q, d) the head function of head (B, h) of the three arguments. -/
theorem result_eq (c : Dev nD) :
    Pipeline.afterTail₀ cfgs (dats m) 0 (V0 m) [hostOps1] c main_v4
      = G4 (m ((c : Thread nD τ).loc main_arg0)) (m ((c : Thread nD τ).loc main_arg1)) (m ((c : Thread nD τ).loc main_arg2)) := by
  rw [tail_v4, final, V_v0, V_v1, V_v2]
  funext i
  obtain ⟨B, h, q, d, rfl⟩ : ∃ (B : Fin 256) (h : Fin 16) (q : Fin 49) (d : Fin 64), i = ix4 B h q d :=
    ⟨i 0, i 1, i 2, i 3, eq_ix4 i⟩
  have hr : B.val * 16 + h.val < 4096 := by have := B.isLt; have := h.isLt; omega
  refine (shapeCast_apply _ shapeCasts_S4096x49x64_S256x16x49x64 (ix4 B h q d) (ix3 (⟨B.val * 16 + h.val, hr⟩ : Fin 4096) q d) (by
    rw [Shape.rowMajor_val_three, Shape.rowMajor_val_four]
    rfl)).trans ?_
  show head (rows3 _ ⟨_, hr⟩) (rows3 _ ⟨_, hr⟩) (rows3 _ ⟨_, hr⟩) q d = head (headOf _ B h) (headOf _ B h) (headOf _ B h) q d
  rw [rows_relaid _ B h ⟨_, hr⟩ rfl, rows_relaid _ B h ⟨_, hr⟩ rfl, rows_relaid _ B h ⟨_, hr⟩ rfl]

/-- The kernel program's run, read: the result at the head function of the arguments, the arguments unchanged. -/
theorem run : θ_run defs (onTc (τ := τ) (main (F := Ideal))) ⟨m, fun _ => 0, ρ⟩ fun r => ∀ c : Dev nD,
      r.2.mem ((c : Thread nD τ).loc main_v4)
        = G4 (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.Attn.Ker

end
-- ==== Proof.lean ====
/- The certificate. Both idealized programs compute, for each of the 4096 heads, ONE function of the head's three 49 × 64
   matrices (Proof/Spec.lean): scaled scores, each row's maximum, exponential weights, their sum plus a small constant, the
   weighted sum of the value rows. The reference does it over [256, 16, 49, 64] arrays (Proof/RefSpec.lean); the kernel re-lays
   the arguments as [4096, 49, 64], handles 128 heads per grid point (Proof/Payload.lean, Proof/Blocks.lean) and re-lays the
   output back (Proof/Host.lean). Only the order of summation and the tiling differ, so no finiteness is used.
   The three frames: the two kernels' are the frame runs; the reference's is its run with the result dropped. No operation was
   rewritten by the idealization, so there is nothing to preserve. -/
import proofs.«138065_j25056839205158_2_alg».proof.Defs
import proofs.«138065_j25056839205158_2_alg».proof.Proof.Gen.Kernel
import proofs.«138065_j25056839205158_2_alg».proof.Proof.Gen.Kernel.Skeleton
import proofs.«138065_j25056839205158_2_alg».proof.Proof.Gen.Kernel.Launch
import proofs.«138065_j25056839205158_2_alg».proof.Proof.Gen.Kernel.Points
import proofs.«138065_j25056839205158_2_alg».proof.Proof.Gen.Kernel.Frame
import proofs.«138065_j25056839205158_2_alg».proof.Proof.Gen.KernelIdeal
import proofs.«138065_j25056839205158_2_alg».proof.Proof.Gen.KernelIdeal.Skeleton
import proofs.«138065_j25056839205158_2_alg».proof.Proof.Gen.KernelIdeal.Launch
import proofs.«138065_j25056839205158_2_alg».proof.Proof.Gen.KernelIdeal.Points
import proofs.«138065_j25056839205158_2_alg».proof.Proof.Gen.KernelIdeal.Frame
import proofs.«138065_j25056839205158_2_alg».proof.Proof.Gen.ReferenceIdeal
import proofs.«138065_j25056839205158_2_alg».proof.Proof.Gen.Pre_finite_inputs
import proofs.«138065_j25056839205158_2_alg».proof.Proof.Gen.ReferenceIdeal.Run
import proofs.«138065_j25056839205158_2_alg».proof.Proof.Gen.ReferenceIdeal.Read
import proofs.«138065_j25056839205158_2_alg».proof.Proof.RefSpec
import proofs.«138065_j25056839205158_2_alg».proof.Proof.Host
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- Both runs end with the result at the head function of each head of the arguments, and the arguments agree. -/
theorem algebraic : Cert.algebraic_KernelIdeal_ReferenceIdeal := by
  intro m ρ m' ρ' _ hagree
  refine ⟨_, Cert.Attn.Ker.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.Attn.Ref.ref_is_G4, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
